-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128x64 : Shape := ⟨2, ![128, 64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x256 .f32) (main_arg1 : FVec F S256x128 .f32) (main_arg2 : FVec F S128x64 .f32) (main_arg3 : FVec F S1600000 .f32) (main_arg4 : IVec S1600000 32) (main_arg5 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x256 : Shape := ⟨2, ![100000, 256]⟩
abbrev S256x128 : Shape := ⟨2, ![256, 128]⟩
abbrev S128x64 : Shape := ⟨2, ![128, 64]⟩
abbrev S1600000 : Shape := ⟨1, ![1600000]⟩
abbrev S100000x128 : Shape := ⟨2, ![100000, 128]⟩
abbrev S10000x256 : Shape := ⟨2, ![10000, 256]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩

abbrev nBuf : Space → Nat
  | .hbm => 44
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128x64, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S100000x128, .bf16⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .bf16⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x64, .f32⟩
  | .hbm, ⟨26, _⟩ => ⟨S100000x64, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x1, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S10000x256_S256x128_S10000x128_1_0_0_1_n_n_wf : DotDims.WF S10000x256 S256x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128x64 : Shape := ⟨2, ![128, 64]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1600000x64 : Shape := ⟨2, ![1600000, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128x64, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelOutcome.lean ====
/- The idealized kernel program's run with its RESULT named. The program is two grid regions among two stretches of host
   operations; its buffers' contents at the four boundaries are a fold from the launch memory (the generated frame module's
   `W0 … W4`), and every buffer that outlives the regions ends at the last boundary's contents. So the result array ends at
   `W4` read at the result's reference, and the six argument arrays end as launched. -/
import proofs.«102303_j25769804170_2_alg».proof.Proof.Gen.KernelIdeal.Frame

set_option maxRecDepth 16384

noncomputable section

namespace Cert.KernelIdeal.Outcome

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents at the result's reference, and each argument array what it held at launch. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Outcome

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBlockProduct.lean ====
/- The product of two matrices over the extended reals as ONE function of the two arrays, for any extents, and three
   readings of it: a `tpu.matmul` with the plain dimension numbers into the zero accumulator IS the product; the host's
   `dot_general` with the plain dimension numbers IS the product, whatever its precision annotation; and a block of whole
   rows of the product is the product of that block of rows of the left factor with the whole right factor (each entry
   of a product depends on one row of the left factor only), stated for any three re-indexings that move a row block
   to its place. No finiteness is used: every statement is an equality of the same finite sum of the same products. -/
import Idealize.ShloMosaic.PureOps.Ideal
import Idealize.ShloMosaic.PureOps.Ideal.Laws
import Idealize.ShloMosaic.Lib.ValueIdx
import proofs.«102303_j25769804170_2_alg».proof.Proof.LibPlainMatmul
import proofs.«102303_j25769804170_2_alg».proof.Proof.LibPlainDot

noncomputable section

open scoped BigOperators

open Idealize.ShloMosaic Idealize.ShloMosaic.ValueIdx

namespace Cert.Lib.BlockProduct

/-- The product of an M×K array and a K×N array: entry (p, q) is the sum over k of left(p, k) · right(k, q). -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- The product read at coordinates. -/
theorem prod_apply {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- A matrix unit's product into the zero accumulator is the product. -/
theorem matmul_eq_prod {M K N : ℕ} {φ₁ φ₂ : FTy} (l : FVec Ideal ⟨2, ![M, K]⟩ φ₁) (r : FVec Ideal ⟨2, ![K, N]⟩ φ₂) :
    FloatOps.matmul (DotDims.plain M K N) none l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  rw [prod_apply]
  exact Cert.Lib.PlainMatmul.plain_matmul_zero_apply l r p q

/-- The host's contraction is the product. -/
theorem dotGeneral_eq_prod {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  rw [prod_apply]
  exact Cert.Lib.PlainDot.plain_dotGeneral_apply prec sched l r p q

/-- A block of R whole rows of a product, starting at row `b`, is the product of those rows of the left factor with the
    right factor: `e0` places a row-block index of the left factor at rows `b …`, `e2` does the same for the product, and
    `e1` leaves the right factor's indices where they are. -/
theorem prod_rowBlock {M K N R : ℕ} (A : (⟨2, ![M, K]⟩ : Shape).Idx → EReal) (B : (⟨2, ![K, N]⟩ : Shape).Idx → EReal)
    (e0 : (⟨2, ![R, K]⟩ : Shape).Idx → (⟨2, ![M, K]⟩ : Shape).Idx) (e1 : (⟨2, ![K, N]⟩ : Shape).Idx → (⟨2, ![K, N]⟩ : Shape).Idx)
    (e2 : (⟨2, ![R, N]⟩ : Shape).Idx → (⟨2, ![M, N]⟩ : Shape).Idx) (b : ℕ)
    (h0 : ∀ z, (e0 z 0).val = b + (z 0).val ∧ (e0 z 1).val = (z 1).val)
    (h1 : ∀ z, (e1 z 0).val = (z 0).val ∧ (e1 z 1).val = (z 1).val)
    (h2 : ∀ z, (e2 z 0).val = b + (z 0).val ∧ (e2 z 1).val = (z 1).val)
    (y : (⟨2, ![R, N]⟩ : Shape).Idx) :
    prod (fun z => A (e0 z)) (fun z => B (e1 z)) y = prod A B (e2 y) := by
  unfold prod
  refine Finset.sum_congr rfl fun k _ => ?_
  have ea : e0 (ix2 (⟨(y 0).val, idx2_lt0 y⟩ : Fin R) k) = ix2 (⟨(e2 y 0).val, idx2_lt0 (e2 y)⟩ : Fin M) k :=
    funext fun a => Fin.ext (by
      match a with
      | ⟨0, _⟩ => exact ((h0 _).1).trans ((h2 y).1).symm
      | ⟨1, _⟩ => exact (h0 _).2)
  have eb : e1 (ix2 k (⟨(y 1).val, idx2_lt1 y⟩ : Fin N)) = ix2 k (⟨(e2 y 1).val, idx2_lt1 (e2 y)⟩ : Fin N) :=
    funext fun a => Fin.ext (by
      match a with
      | ⟨0, _⟩ => exact (h1 _).1
      | ⟨1, _⟩ => exact ((h1 _).2).trans ((h2 y).2).symm)
  show A (e0 _) * B (e1 _) = _
  rw [ea, eb]

end Cert.Lib.BlockProduct

end
-- ==== Proof.FirstProduct.lean ====
/- The first grid region, value side. Its grid has ten points; point t loads rows 10000·t … 10000·t + 9999 of the
   100000×256 left operand and the whole 256×128 right operand, and stores their product as rows 10000·t … of the
   100000×128 output. The ten row blocks tile the output, and a row block of a product is the product of that row block
   of the left factor with the right factor, so after the region the output array is the product of the two operand arrays -/
import proofs.«102303_j25769804170_2_alg».proof.Proof.Gen.KernelIdeal.Frame
import proofs.«102303_j25769804170_2_alg».proof.Proof.LibBlockProduct
import Idealize.ShloMosaic.Lib.Pipeline.Value
import Idealize.ShloMosaic.Lib.ValueIdx

set_option maxRecDepth 16384

noncomputable section

namespace Cert.KernelIdeal.FirstProduct

open Idealize.ShloMosaic Idealize.ShloMosaic.TcCoe Idealize.SL.Sem Idealize.ShloMosaic.ValueIdx
open Idealize.ShloMosaic.Pipeline (Dat)
open Cert.KernelIdeal Cert.KernelIdeal.Gen Cert.Lib.BlockProduct

variable (V : (c : Dev nD) → (b : Ref sig .tc) → Buf (Elt Ideal) ((c : Thread nD τ).loc b))

theorem origin : (![0, 0] : Fin 2 → Nat) = fun _ => 0 := funext fun a => by fin_cases a <;> rfl

/-- What the body computes from its two loaded blocks: their product (a change of float format is the identity, and
    the matrix unit starts from the zero accumulator). -/
theorem body_eq (x0 : Vec Ideal S10000x256 .f32) (x1 : Vec Ideal S256x128 .f32) : k0_pay1 x0 x1 = prod x0 x1 :=
  matmul_eq_prod (M := 10000) (K := 256) (N := 128) (φ₁ := .bf16) (φ₂ := .bf16) x0 x1

/-- The index maps over the grid: the row-block of the left factor moves with the output's, point `t` handles row block
    `t`, and the right factor's one block stays at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two argument arrays as the region finds them. -/
theorem flushed_eq (c : Dev nD) (t : Fin cfg0.N) :
    (dat0 V c).flushed 2 t = ((cfg0.win 2).blk t).view.read (Elt Ideal) (prod (M := 100000) (K := 256) (N := 128) (V c main_arg0) (V c main_arg1)) := by
  show (cfg0.win 2).cut (grid0.coords t) ((dat0 V c).after 2 t) = _
  rw [after0_2]
  unfold out0_2
  rw [View.canon_unit_zero origin]
  simp only [View.ld_unit_zero (S := S10000x256) origin, View.ld_unit_zero (S := S256x128) origin]
  rw [body_eq]
  obtain ⟨e0, e1, e2, e3, e4, e5⟩ := index_facts t
  funext j
  refine prod_rowBlock (M := 100000) (K := 256) (N := 128) (R := 10000) (V c main_arg0) (V c main_arg1)
    (((cfg0.win 0).blk t).view.emb) (((cfg0.win 1).blk t).view.emb) (((cfg0.win 2).blk t).view.emb) (t.val * 10000) ?_ ?_ ?_ j
  · intro z
    refine ⟨?_, ?_⟩
    · show win0_0.index t (0 : Fin 2) * 10000 + 1 * (z 0).val = _; omega
    · show win0_0.index t (1 : Fin 2) * 256 + 1 * (z 1).val = _; omega
  · intro z
    refine ⟨?_, ?_⟩
    · show win0_1.index t (0 : Fin 2) * 256 + 1 * (z 0).val = _; omega
    · show win0_1.index t (1 : Fin 2) * 128 + 1 * (z 1).val = _; omega
  · intro z
    refine ⟨?_, ?_⟩
    · show win0_2.index t (0 : Fin 2) * 10000 + 1 * (z 0).val = _; omega
    · show win0_2.index t (1 : Fin 2) * 128 + 1 * (z 1).val = _; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The ten row blocks tile the array: row `r` is in the block of point `r / 10000`. -/
theorem cover (i : S100000x128.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 128 := (i 1).isLt
  let t : Fin cfg0.N := ⟨(i 0).val / 10000, by show (i 0).val / 10000 < grid0.N; omega⟩
  obtain ⟨e0, e1, e2, e3, e4, e5⟩ := index_facts t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The first region's output array after the region: the product of its two operand arrays as the region finds them. -/
theorem final (c : Dev nD) :
    (dat0 V c).arrAt 2 cfg0.N = prod (M := 100000) (K := 256) (N := 128) (V c main_arg0) (V c main_arg1) :=
  (dat0 V c).arrAt_eq_of_cover 2 _ (fun t _ => flushed_eq V c t) cover

end Cert.KernelIdeal.FirstProduct

end
-- ==== Proof.SecondProduct.lean ====
/- The second grid region, value side. Its grid has twenty points; point t loads rows 5000·t … 5000·t + 4999 of the
   100000×128 left operand and the whole 128×64 right operand, takes the positive part of the left block, and stores the
   product as rows 5000·t … of the 100000×64 output. The twenty row blocks tile the output, the positive part is taken
   entry by entry, and a row block of a product is the product of that row block of the left factor with the right
   factor, so after the region the output array is the product of the positive part of the left operand array with the
   right operand array -/
import proofs.«102303_j25769804170_2_alg».proof.Proof.Gen.KernelIdeal.Frame
import proofs.«102303_j25769804170_2_alg».proof.Proof.LibBlockProduct
import Idealize.ShloMosaic.Lib.Pipeline.Value
import Idealize.ShloMosaic.Lib.ValueIdx

set_option maxRecDepth 16384

noncomputable section

namespace Cert.KernelIdeal.SecondProduct

open Idealize.ShloMosaic Idealize.ShloMosaic.TcCoe Idealize.SL.Sem Idealize.ShloMosaic.ValueIdx
open Idealize.ShloMosaic.Pipeline (Dat)
open Cert.KernelIdeal Cert.KernelIdeal.Gen Cert.Lib.BlockProduct

variable (V : (c : Dev nD) → (b : Ref sig .tc) → Buf (Elt Ideal) ((c : Thread nD τ).loc b))

theorem origin : (![0, 0] : Fin 2 → Nat) = fun _ => 0 := funext fun a => by fin_cases a <;> rfl

/-- The positive part of an array, entry by entry: the larger of the entry and the number the all-zero word denotes. -/
def relu {s : Shape} (d : s.Idx → EReal) : s.Idx → EReal := fun i => max (d i) (Ideal.ofBits .f32 0x00000000#32)

/-- The positive part is the larger of the entry and zero. -/
theorem relu_apply {s : Shape} (d : s.Idx → EReal) (i : s.Idx) : relu d i = max (d i) 0 := by
  unfold relu; rw [Ideal.ofBits_zero_f32]

/-- What the body computes from its two loaded blocks: the product of the positive part of the left block with the
    right block (the reshape to the same shape and the changes of float format are the identity, and the matrix unit
    starts from the zero accumulator). -/
theorem body_eq (x0 : Vec Ideal S5000x128 .f32) (x1 : Vec Ideal S128x64 .f32) : k1_pay1 x0 x1 = prod (relu x0) x1 := by
  have hl : (truncf .bf16 (maximumf (shapeCast S5000x128 x0 shapeCasts_S5000x128_S5000x128)
      (broadcast S5000x128 (Scalar.ofBits (F := Ideal) .f32 0x00000000#32))) bitsLt_bf16_f32 : FVec Ideal S5000x128 .bf16) = relu x0 := by
    funext i
    show max (shapeCast S5000x128 x0 shapeCasts_S5000x128_S5000x128 i) (Ideal.ofBits .f32 0x00000000#32) = max (x0 i) (Ideal.ofBits .f32 0x00000000#32)
    rw [shapeCast_self]
  exact (matmul_eq_prod (M := 5000) (K := 128) (N := 64) (φ₁ := .bf16) (φ₂ := .bf16) _ x1).trans (congrArg (fun d => prod d x1) hl)

/-- The index maps over the grid: the row-block of the left factor moves with the output's, point `t` handles row block
    `t`, and the right factor's one block stays at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the positive part of the left operand array with the
    right operand array, as the region finds them (the positive part of a row block is the row block of the positive part). -/
theorem flushed_eq (c : Dev nD) (t : Fin cfg1.N) :
    (dat1 V c).flushed 2 t = ((cfg1.win 2).blk t).view.read (Elt Ideal) (prod (M := 100000) (K := 128) (N := 64) (relu (V c main_v15)) (V c main_arg2)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x64) origin]
  rw [body_eq]
  obtain ⟨e0, e1, e2, e3, e4, e5⟩ := index_facts t
  funext j
  refine prod_rowBlock (M := 100000) (K := 128) (N := 64) (R := 5000) (relu (V c main_v15)) (V c main_arg2)
    (((cfg1.win 0).blk t).view.emb) (((cfg1.win 1).blk t).view.emb) (((cfg1.win 2).blk t).view.emb) (t.val * 5000) ?_ ?_ ?_ j
  · intro z
    refine ⟨?_, ?_⟩
    · show win1_0.index t (0 : Fin 2) * 5000 + 1 * (z 0).val = _; omega
    · show win1_0.index t (1 : Fin 2) * 128 + 1 * (z 1).val = _; omega
  · intro z
    refine ⟨?_, ?_⟩
    · show win1_1.index t (0 : Fin 2) * 128 + 1 * (z 0).val = _; omega
    · show win1_1.index t (1 : Fin 2) * 64 + 1 * (z 1).val = _; omega
  · intro z
    refine ⟨?_, ?_⟩
    · show win1_2.index t (0 : Fin 2) * 5000 + 1 * (z 0).val = _; omega
    · show win1_2.index t (1 : Fin 2) * 64 + 1 * (z 1).val = _; omega

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v16).slice (win1_2.rect t)).set ↔ _
  rw [View.set_slice_whole, Rect.mem_set_unit]
  exact Iff.rfl

/-- The twenty row blocks tile the array: row `r` is in the block of point `r / 5000`. -/
theorem cover (i : S100000x64.Idx) : ∃ t : Fin cfg1.N, (cfg1.win 2).flush t = true ∧ i ∈ ((cfg1.win 2).blk t).view.set := by
  have hN : grid1.N = 20 := N_1
  have hi0 : (i 0).val < 100000 := (i 0).isLt
  have hi1 : (i 1).val < 64 := (i 1).isLt
  let t : Fin cfg1.N := ⟨(i 0).val / 5000, by show (i 0).val / 5000 < grid1.N; omega⟩
  obtain ⟨e0, e1, e2, e3, e4, e5⟩ := index_facts t
  have e4' : win1_2.index t (0 : Fin 2) = (i 0).val / 5000 := e4
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The second region's output array after the region: the product of the positive part of its left operand array
    with its right operand array, as the region finds them. -/
theorem final (c : Dev nD) :
    (dat1 V c).arrAt 2 cfg1.N = prod (M := 100000) (K := 128) (N := 64) (relu (V c main_v15)) (V c main_arg2) :=
  (dat1 V c).arrAt_eq_of_cover 2 _ (fun t _ => flushed_eq V c t) cover

end Cert.KernelIdeal.SecondProduct

end
-- ==== Proof.SparseSteps.lean ====
/- The host operations between and after the two grid regions, value side. After each region the program takes the region's
   output array D (100000 rows), and for the 1600000 edges e gathers row src(e) of D (a negative index first wrapped by
   adding 100000, then clamped into range by the gather), scales it by val(e), and adds the scaled rows up per
   destination row dst(e) into an all-zero array. The gather runs on the array narrowed to bf16 and its result is
   widened back, both changes of format being the identity on extended reals. Read through the generated fold of the
   boundary contents, the program's result is: that sparse step (64 features) of the second region's product, whose
   left operand is that sparse step (128 features) of the first region's product. -/
import proofs.«102303_j25769804170_2_alg».proof.Proof.Gen.KernelIdeal.Frame
import proofs.«102303_j25769804170_2_alg».proof.Proof.FirstProduct
import proofs.«102303_j25769804170_2_alg».proof.Proof.SecondProduct
import Idealize.ShloMosaic.Lib.StableHlo.Run

set_option maxRecDepth 16384

noncomputable section

namespace Cert.KernelIdeal.Sparse

open Idealize.ShloMosaic Idealize.ShloMosaic.TcCoe Idealize.SL.Sem Idealize.ShloMosaic.StableHlo
open Cert.KernelIdeal Cert.KernelIdeal.Gen Cert.Lib.BlockProduct

/-- The source index of every edge with a negative index wrapped once (as `x[idx]` does), as a column. -/
def wrapped (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The sparse step at 128 features: gather the rows of `dense` at the wrapped source indices, scale row e by val(e),
    add the scaled rows up per destination row into zeros. -/
def spread128 (vals : (⟨S1600000, .f32⟩ : BufTy).Contents (Elt Ideal)) (src dst : (⟨S1600000, .i32⟩ : BufTy).Contents (Elt Ideal))
    (dense : (⟨S100000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 dense (wrapped src)))

/-- The sparse step at 64 features. -/
def spread64 (vals : (⟨S1600000, .f32⟩ : BufTy).Contents (Elt Ideal)) (src dst : (⟨S1600000, .i32⟩ : BufTy).Contents (Elt Ideal))
    (dense : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 dense (wrapped src)))

/-- Narrowing an array's float format, gathering, and widening back is gathering: both changes of format are the
    identity on extended reals, and a gather only moves entries. -/
theorem narrow_gather_widen {s si t : Shape} {w : Nat} (d : GatherDims s si t) (x : FVec Ideal s .f32) (idx : IVec si w)
    (h1 : FTy.bits .bf16 < FTy.bits .f32) (h2 : FTy.bits .bf16 < FTy.bits .f32) :
    (extf .f32 (Host.gather d (truncf .bf16 x h1 : FVec Ideal s .bf16) idx : FVec Ideal t .bf16) h2 : FVec Ideal t .f32) = Host.gather d x idx := rfl

variable (m : (ℓ : Loc nD τ sig) → Buf (Elt Ideal) ℓ) (ρ : Dev nD → PrngReg)

/-! ## The boundary contents at the buffers the host operations read -/

/-- After the first region its output array is the product of the first two arguments. -/
theorem first_output (c : Dev nD) : W1 m ρ c (Proc.devRef .tc main_v0)
    = prod (M := 100000) (K := 256) (N := 128) (m ((c : Thread nD τ).loc main_arg0)) (m ((c : Thread nD τ).loc main_arg1)) :=
  (W1_arr m ρ c 2).trans (FirstProduct.final (V0 m ρ) c)

/-- The first region leaves the other arguments as launched. -/
theorem first_keeps_arg2 (c : Dev nD) : W1 m ρ c (Proc.devRef .tc main_arg2) = m ((c : Thread nD τ).loc main_arg2) := W1_of_ne m ρ c main_arg2 (by decide)
theorem first_keeps_arg3 (c : Dev nD) : W1 m ρ c (Proc.devRef .tc main_arg3) = m ((c : Thread nD τ).loc main_arg3) := W1_of_ne m ρ c main_arg3 (by decide)
theorem first_keeps_arg4 (c : Dev nD) : W1 m ρ c (Proc.devRef .tc main_arg4) = m ((c : Thread nD τ).loc main_arg4) := W1_of_ne m ρ c main_arg4 (by decide)
theorem first_keeps_arg5 (c : Dev nD) : W1 m ρ c (Proc.devRef .tc main_arg5) = m ((c : Thread nD τ).loc main_arg5) := W1_of_ne m ρ c main_arg5 (by decide)

/-- The host operations between the regions write none of the arguments the second region and the last stretch read. -/
theorem second_entry_arg2 (c : Dev nD) : W2 m ρ c (Proc.devRef .tc main_arg2) = m ((c : Thread nD τ).loc main_arg2) := by
  show StableHlo.after hostOps1 (W1 m ρ c) (Proc.devRef .tc main_arg2) = _
  after_results_simp
  exact first_keeps_arg2 m ρ c
theorem second_entry_arg3 (c : Dev nD) : W2 m ρ c (Proc.devRef .tc main_arg3) = m ((c : Thread nD τ).loc main_arg3) := by
  show StableHlo.after hostOps1 (W1 m ρ c) (Proc.devRef .tc main_arg3) = _
  after_results_simp
  exact first_keeps_arg3 m ρ c
theorem second_entry_arg4 (c : Dev nD) : W2 m ρ c (Proc.devRef .tc main_arg4) = m ((c : Thread nD τ).loc main_arg4) := by
  show StableHlo.after hostOps1 (W1 m ρ c) (Proc.devRef .tc main_arg4) = _
  after_results_simp
  exact first_keeps_arg4 m ρ c
theorem second_entry_arg5 (c : Dev nD) : W2 m ρ c (Proc.devRef .tc main_arg5) = m ((c : Thread nD τ).loc main_arg5) := by
  show StableHlo.after hostOps1 (W1 m ρ c) (Proc.devRef .tc main_arg5) = _
  after_results_simp
  exact first_keeps_arg5 m ρ c

set_option maxHeartbeats 1000000 in
/-- The second region's left operand, as the region finds it: the sparse step of the first product. -/
theorem second_entry_left (c : Dev nD) : W2 m ρ c (Proc.devRef .tc main_v15)
    = spread128 (m ((c : Thread nD τ).loc main_arg3)) (m ((c : Thread nD τ).loc main_arg4)) (m ((c : Thread nD τ).loc main_arg5))
        (prod (M := 100000) (K := 256) (N := 128) (m ((c : Thread nD τ).loc main_arg0)) (m ((c : Thread nD τ).loc main_arg1))) := by
  show StableHlo.after hostOps1 (W1 m ρ c) (Proc.devRef .tc main_v15) = _
  after_results_simp
  rw [first_output, first_keeps_arg3, first_keeps_arg4, first_keeps_arg5, narrow_gather_widen]
  unfold spread128 wrapped
  rfl

/-- After the second region its output array is the product of the positive part of the sparse step of the first
    product with the third argument. -/
theorem second_output (c : Dev nD) : W3 m ρ c (Proc.devRef .tc main_v16)
    = prod (M := 100000) (K := 128) (N := 64)
        (SecondProduct.relu (spread128 (m ((c : Thread nD τ).loc main_arg3)) (m ((c : Thread nD τ).loc main_arg4)) (m ((c : Thread nD τ).loc main_arg5))
          (prod (M := 100000) (K := 256) (N := 128) (m ((c : Thread nD τ).loc main_arg0)) (m ((c : Thread nD τ).loc main_arg1)))))
        (m ((c : Thread nD τ).loc main_arg2)) := by
  refine ((W3_arr m ρ c 2).trans (SecondProduct.final (V2 m ρ) c)).trans ?_
  show prod (SecondProduct.relu (W2 m ρ c (Proc.devRef .tc main_v15))) (W2 m ρ c (Proc.devRef .tc main_arg2)) = _
  rw [second_entry_left, second_entry_arg2]

/-- The second region leaves the arguments the last stretch reads as launched. -/
theorem second_keeps_arg3 (c : Dev nD) : W3 m ρ c (Proc.devRef .tc main_arg3) = m ((c : Thread nD τ).loc main_arg3) :=
  (W3_of_ne m ρ c main_arg3 (by decide)).trans (second_entry_arg3 m ρ c)
theorem second_keeps_arg4 (c : Dev nD) : W3 m ρ c (Proc.devRef .tc main_arg4) = m ((c : Thread nD τ).loc main_arg4) :=
  (W3_of_ne m ρ c main_arg4 (by decide)).trans (second_entry_arg4 m ρ c)
theorem second_keeps_arg5 (c : Dev nD) : W3 m ρ c (Proc.devRef .tc main_arg5) = m ((c : Thread nD τ).loc main_arg5) :=
  (W3_of_ne m ρ c main_arg5 (by decide)).trans (second_entry_arg5 m ρ c)

set_option maxHeartbeats 1000000 in
/-- THE PROGRAM'S RESULT, as a function of the six arguments. -/
theorem result_eq (c : Dev nD) : W4 m ρ c (Proc.devRef .tc main_v31)
    = spread64 (m ((c : Thread nD τ).loc main_arg3)) (m ((c : Thread nD τ).loc main_arg4)) (m ((c : Thread nD τ).loc main_arg5))
        (prod (M := 100000) (K := 128) (N := 64)
          (SecondProduct.relu (spread128 (m ((c : Thread nD τ).loc main_arg3)) (m ((c : Thread nD τ).loc main_arg4)) (m ((c : Thread nD τ).loc main_arg5))
            (prod (M := 100000) (K := 256) (N := 128) (m ((c : Thread nD τ).loc main_arg0)) (m ((c : Thread nD τ).loc main_arg1)))))
          (m ((c : Thread nD τ).loc main_arg2))) := by
  show StableHlo.after hostOps2 (W3 m ρ c) (Proc.devRef .tc main_v31) = _
  after_results_simp
  rw [second_output, second_keeps_arg3, second_keeps_arg4, second_keeps_arg5, narrow_gather_widen]
  unfold spread64 wrapped
  rfl

end Cert.KernelIdeal.Sparse

end
-- ==== Proof.Agreement.lean ====
/- The reference program's result is the same function of the six arguments as the kernel program's. The reference
   computes, stage by stage: the product of the first two arguments (a host contraction), the sparse step at 128
   features, the positive part (a maximum with a splat zero), the product with the third argument (a host contraction),
   and the sparse step at 64 features. A host contraction is the matrix product entry by entry, the maximum with the
   splat of the zero word is the positive part, and the sparse steps are spelled by the same host operations in both
   programs; so nothing about the gather or the accumulation is opened, and no finiteness is used. -/
import proofs.«102303_j25769804170_2_alg».proof.Proof.SparseSteps
import proofs.«102303_j25769804170_2_alg».proof.Proof.Gen.ReferenceIdeal.Read

set_option maxRecDepth 16384

noncomputable section

namespace Cert.Agreement

open Idealize.ShloMosaic
open Cert.Lib.BlockProduct Cert.KernelIdeal.Sparse Cert.KernelIdeal.SecondProduct
open Cert.ReferenceIdeal Cert.ReferenceIdeal.Read

variable (x0 : (⟨S100000x256, .f32⟩ : BufTy).Contents (Elt Ideal)) (x1 : (⟨S256x128, .f32⟩ : BufTy).Contents (Elt Ideal))
  (x2 : (⟨S128x64, .f32⟩ : BufTy).Contents (Elt Ideal)) (x3 : (⟨S1600000, .f32⟩ : BufTy).Contents (Elt Ideal))
  (x4 x5 : (⟨S1600000, .i32⟩ : BufTy).Contents (Elt Ideal))

/-- The reference's first contraction is the product of the first two arguments. -/
theorem stage_first : val_main_v0 (F := Ideal) x0 x1 = prod (M := 100000) (K := 256) (N := 128) x0 x1 :=
  dotGeneral_eq_prod (M := 100000) (K := 256) (N := 128) none .single x0 x1

/-- Its next thirteen operations are the sparse step at 128 features of that contraction. -/
theorem stage_spread128 : val_main_v13 (F := Ideal) x0 x1 x3 x4 x5 = spread128 x3 x4 x5 (val_main_v0 (F := Ideal) x0 x1) := rfl

/-- The outlined maximum with a splat zero is the positive part. -/
theorem stage_relu : val_main_v14 (F := Ideal) x0 x1 x3 x4 x5 = relu (val_main_v13 (F := Ideal) x0 x1 x3 x4 x5) := rfl

/-- The second contraction is the product with the third argument. -/
theorem stage_second : val_main_v15 (F := Ideal) x0 x1 x2 x3 x4 x5
    = prod (M := 100000) (K := 128) (N := 64) (val_main_v14 (F := Ideal) x0 x1 x3 x4 x5) x2 :=
  dotGeneral_eq_prod (M := 100000) (K := 128) (N := 64) none .single _ x2

/-- The last thirteen operations are the sparse step at 64 features of the second contraction. -/
theorem stage_spread64 : val_main_v28 (F := Ideal) x0 x1 x2 x3 x4 x5 = spread64 x3 x4 x5 (val_main_v15 (F := Ideal) x0 x1 x2 x3 x4 x5) := rfl

/-- THE REFERENCE'S RESULT, as the same function of the six arguments as the kernel program's. -/
theorem reference_eq : val_main_v28 (F := Ideal) x0 x1 x2 x3 x4 x5
    = spread64 x3 x4 x5 (prod (M := 100000) (K := 128) (N := 64)
        (relu (spread128 x3 x4 x5 (prod (M := 100000) (K := 256) (N := 128) x0 x1))) x2) := by
  rw [stage_spread64, stage_second, stage_relu, stage_spread128, stage_first]

end Cert.Agreement

end
-- ==== Proof.lean ====
/- A two-layer graph convolution: with x the 100000×256 node features, W1 (256×128) and W2 (128×64) the weights, and the
   1600000 edges (val, src, dst) a sparse matrix applied by gathering rows at src, scaling by val and adding up per dst,
   both programs compute  S · (relu(S · (x · W1)) · W2),  S the sparse step. The kernel program forms the two dense
   products in two grid regions, ten row blocks of 10000 rows and twenty of 5000, the positive part fused into the second
   region's load, and narrows each product to bf16 around its gather; the reference forms them by host contractions and
   takes the positive part on the host. On the extended reals a change of float format is the identity, a matrix unit's
   product into a zero accumulator and a host contraction are the same sum of products, and a row block of a product is
   the product of that row block of the left factor with the right factor; the sparse steps are spelled by the same host
   operations in both programs. So the two results are one function of the six arguments (Proof/Agreement.lean against
   Proof/SparseSteps.lean), and no finiteness of the inputs is used. The three frames are the generated runs; the
   idealization rewrote no operation, so the kernel's idealized program is its own text read on the extended reals. -/
import proofs.«102303_j25769804170_2_alg».proof.Defs
import proofs.«102303_j25769804170_2_alg».proof.Proof.Gen.Kernel
import proofs.«102303_j25769804170_2_alg».proof.Proof.Gen.Kernel.Skeleton
import proofs.«102303_j25769804170_2_alg».proof.Proof.Gen.Kernel.Launch
import proofs.«102303_j25769804170_2_alg».proof.Proof.Gen.Kernel.Points
import proofs.«102303_j25769804170_2_alg».proof.Proof.Gen.Kernel.Frame
import proofs.«102303_j25769804170_2_alg».proof.Proof.Gen.KernelIdeal
import proofs.«102303_j25769804170_2_alg».proof.Proof.Gen.KernelIdeal.Skeleton
import proofs.«102303_j25769804170_2_alg».proof.Proof.Gen.KernelIdeal.Launch
import proofs.«102303_j25769804170_2_alg».proof.Proof.Gen.KernelIdeal.Points
import proofs.«102303_j25769804170_2_alg».proof.Proof.Gen.KernelIdeal.Frame
import proofs.«102303_j25769804170_2_alg».proof.Proof.Gen.ReferenceIdeal
import proofs.«102303_j25769804170_2_alg».proof.Proof.Gen.Pre_finite_inputs
import proofs.«102303_j25769804170_2_alg».proof.Proof.Gen.ReferenceIdeal.Run
import proofs.«102303_j25769804170_2_alg».proof.Proof.Gen.ReferenceIdeal.Read
import proofs.«102303_j25769804170_2_alg».proof.Proof.KernelOutcome
import proofs.«102303_j25769804170_2_alg».proof.Proof.SparseSteps
import proofs.«102303_j25769804170_2_alg».proof.Proof.Agreement
import Idealize.ShloMosaic.Adequacy
import Idealize.ShloMosaic.Init

noncomputable section

namespace Cert.Proof

open Idealize.ShloMosaic Idealize.SL.Sem

/-- The word-level kernel program runs and leaves its arguments as launched. -/
theorem frame_kernel : @Cert.frame_Kernel Cert.Kernel.Gen.facts Cert.Pre_finite_inputs.Gen.facts :=
  fun m ρ _ => Cert.Kernel.Gen.frame m ρ

/-- So does the kernel program read on the extended reals. -/
theorem frame_kernelIdeal : @Cert.frame_KernelIdeal Cert.KernelIdeal.Gen.facts Cert.Pre_finite_inputs.Gen.facts :=
  fun m ρ _ => Cert.KernelIdeal.Gen.frame m ρ

/-- The reference is a line of host operations: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the six arguments both programs end with the result at the sparse step of the second
    product: the kernel program by its boundary contents read back, the reference by its stages. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W4 m ρ c (Proc.devRef .tc Cert.KernelIdeal.main_v31),
    Cert.KernelIdeal.Outcome.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2]
  exact (Cert.Agreement.reference_eq _ _ _ _ _ _).trans (Cert.KernelIdeal.Sparse.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
